-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x100 : Shape := ⟨2, ![8192, 100]⟩
abbrev S100x64 : Shape := ⟨2, ![100, 64]⟩
abbrev S_ : Shape := ⟨0, ![]⟩

class Facts : Prop where
  bcast_S_S8192x100 : S_.BroadcastsInDim S8192x100 (![] : Fin 0 → Fin S8192x100.rank)
  reducesTo_S8192x100_S_d0_1 : S8192x100.ReducesTo [0, 1] S_
  h_S_ : 0 < S_.numel
  bcast_S_S100x64 : S_.BroadcastsInDim S100x64 (![] : Fin 0 → Fin S100x64.rank)
  reducesTo_S100x64_S_d0_1 : S100x64.ReducesTo [0, 1] S_

variable [Facts]

def fn {F : FTy → Type} [FloatOps F] (main_arg0 : FVec F S8192x100 .f32) (main_arg1 : FVec F S100x64 .f32) : IVec S_ 1 :=
  let main_v0 : FVec F S8192x100 .f32 := Host.absf main_arg0
  let main_cst : FVec F S_ .f32 := constant S_ .f32 0x7F800000#32
  let main_v1 : FVec F S8192x100 .f32 := broadcastInDim S8192x100 ![] bcast_S_S8192x100 main_cst
  let main_v2 : IVec S8192x100 1 := cmpf .olt main_v0 main_v1
  let main_c : IVec S_ 1 := constantI S_ 1 1#1
  let main_v3 : IVec S_ 1 := (fun x v => Host.reduce IntOp.andi x v reducesTo_S8192x100_S_d0_1 h_S_) main_v2 main_c
  let main_v4 : FVec F S100x64 .f32 := Host.absf main_arg1
  let main_cst_0 : FVec F S_ .f32 := constant S_ .f32 0x7F800000#32
  let main_v5 : FVec F S100x64 .f32 := broadcastInDim S100x64 ![] bcast_S_S100x64 main_cst_0
  let main_v6 : IVec S100x64 1 := cmpf .olt main_v4 main_v5
  let main_c_1 : IVec S_ 1 := constantI S_ 1 1#1
  let main_v7 : IVec S_ 1 := (fun x v => Host.reduce IntOp.andi x v reducesTo_S100x64_S_d0_1 h_S_) main_v6 main_c_1
  let main_v8 : IVec S_ 1 := andi main_v3 main_v7
  main_v8
-- ==== Kernel.lean ====
abbrev S8192x100 : Shape := ⟨2, ![8192, 100]⟩
abbrev S100x64 : Shape := ⟨2, ![100, 64]⟩
abbrev S1x6400 : Shape := ⟨2, ![1, 6400]⟩
abbrev S8192x6400 : Shape := ⟨2, ![8192, 6400]⟩
abbrev S512x100 : Shape := ⟨2, ![512, 100]⟩
abbrev S512x6400 : Shape := ⟨2, ![512, 6400]⟩
abbrev S512x128 : Shape := ⟨2, ![512, 128]⟩
abbrev S512x1 : Shape := ⟨2, ![512, 1]⟩
abbrev S1x128 : Shape := ⟨2, ![1, 128]⟩
abbrev S8192x1x6400 : Shape := ⟨3, ![8192, 1, 6400]⟩

abbrev nBuf : Space → Nat
  | .hbm => 5
  | .vmem => 5
  | .smem => 0
  | _ => 0

abbrev bufTy : (tb : Table) → Fin (tcTables nBuf tb) → BufTy
  | .hbm, ⟨0, _⟩ => ⟨S8192x100, .f32⟩
  | .hbm, ⟨1, _⟩ => ⟨S100x64, .f32⟩
  | .hbm, ⟨2, _⟩ => ⟨S1x6400, .f32⟩
  | .hbm, ⟨3, _⟩ => ⟨S8192x6400, .f32⟩
  | .hbm, ⟨4, _⟩ => ⟨S8192x1x6400, .f32⟩
  | .local _ .vmem, ⟨0, _⟩ => ⟨S512x100, .f32⟩
  | .local _ .vmem, ⟨1, _⟩ => ⟨S512x100, .f32⟩
  | .local _ .vmem, ⟨2, _⟩ => ⟨S1x6400, .f32⟩
  | .local _ .vmem, ⟨3, _⟩ => ⟨S512x6400, .f32⟩
  | .local _ .vmem, ⟨4, _⟩ => ⟨S512x6400, .f32⟩
  | _, _ => ⟨S8192x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6400 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x6400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S100x64_S1x6400 : S100x64.ShapeCasts S1x6400
  iota_S512x128_d1_w32 : S512x128.Iotas .tc 32 [1]
  inb_S512x100_S512x1_0_0 : ∀ a, (![0, 0] : Fin 2 → Nat) a + S512x1.size a ≤ S512x100.size a
  h_S512x1 : 0 < S512x1.numel
  inb_S512x100_S512x1_0_1 : ∀ a, (![0, 1] : Fin 2 → Nat) a + S512x1.size a ≤ S512x100.size a
  shapeCasts_S512x1_S512x1 : S512x1.ShapeCasts S512x1
  broadcasts_S512x1_S512x128 : S512x1.Broadcasts S512x128
  inb_S1x6400_S1x128_0_0 : ∀ a, (![0, 0] : Fin 2 → Nat) a + S1x128.size a ≤ S1x6400.size a
  h_S1x128 : 0 < S1x128.numel
  shapeCasts_S1x128_S1x128 : S1x128.ShapeCasts S1x128
  broadcasts_S1x128_S512x128 : S1x128.Broadcasts S512x128
  inb_S512x6400_S512x128_0_0 : ∀ a, (![0, 0] : Fin 2 → Nat) a + S512x128.size a ≤ S512x6400.size a
  h_S512x128 : 0 < S512x128.numel
  inb_S512x100_S512x1_0_2 : ∀ a, (![0, 2] : Fin 2 → Nat) a + S512x1.size a ≤ S512x100.size a
  inb_S512x100_S512x1_0_3 : ∀ a, (![0, 3] : Fin 2 → Nat) a + S512x1.size a ≤ S512x100.size a
  inb_S1x6400_S1x128_0_128 : ∀ a, (![0, 128] : Fin 2 → Nat) a + S1x128.size a ≤ S1x6400.size a
  inb_S512x6400_S512x128_0_128 : ∀ a, (![0, 128] : Fin 2 → Nat) a + S512x128.size a ≤ S512x6400.size a
  inb_S512x100_S512x1_0_4 : ∀ a, (![0, 4] : Fin 2 → Nat) a + S512x1.size a ≤ S512x100.size a
  inb_S512x100_S512x1_0_5 : ∀ a, (![0, 5] : Fin 2 → Nat) a + S512x1.size a ≤ S512x100.size a
  inb_S1x6400_S1x128_0_256 : ∀ a, (![0, 256] : Fin 2 → Nat) a + S1x128.size a ≤ S1x6400.size a
  inb_S512x6400_S512x128_0_256 : ∀ a, (![0, 256] : Fin 2 → Nat) a + S512x128.size a ≤ S512x6400.size a
  inb_S512x100_S512x1_0_6 : ∀ a, (![0, 6] : Fin 2 → Nat) a + S512x1.size a ≤ S512x100.size a
  inb_S512x100_S512x1_0_7 : ∀ a, (![0, 7] : Fin 2 → Nat) a + S512x1.size a ≤ S512x100.size a
  inb_S1x6400_S1x128_0_384 : ∀ a, (![0, 384] : Fin 2 → Nat) a + S1x128.size a ≤ S1x6400.size a
  inb_S512x6400_S512x128_0_384 : ∀ a, (![0, 384] : Fin 2 → Nat) a + S512x128.size a ≤ S512x6400.size a
  inb_S512x100_S512x1_0_8 : ∀ a, (![0, 8] : Fin 2 → Nat) a + S512x1.size a ≤ S512x100.size a
  inb_S512x100_S512x1_0_9 : ∀ a, (![0, 9] : Fin 2 → Nat) a + S512x1.size a ≤ S512x100.size a
  inb_S1x6400_S1x128_0_512 : ∀ a, (![0, 512] : Fin 2 → Nat) a + S1x128.size a ≤ S1x6400.size a
  inb_S512x6400_S512x128_0_512 : ∀ a, (![0, 512] : Fin 2 → Nat) a + S512x128.size a ≤ S512x6400.size a
  inb_S512x100_S512x1_0_10 : ∀ a, (![0, 10] : Fin 2 → Nat) a + S512x1.size a ≤ S512x100.size a
  inb_S512x100_S512x1_0_11 : ∀ a, (![0, 11] : Fin 2 → Nat) a + S512x1.size a ≤ S512x100.size a
  inb_S1x6400_S1x128_0_640 : ∀ a, (![0, 640] : Fin 2 → Nat) a + S1x128.size a ≤ S1x6400.size a
  inb_S512x6400_S512x128_0_640 : ∀ a, (![0, 640] : Fin 2 → Nat) a + S512x128.size a ≤ S512x6400.size a
  inb_S512x100_S512x1_0_12 : ∀ a, (![0, 12] : Fin 2 → Nat) a + S512x1.size a ≤ S512x100.size a
  inb_S512x100_S512x1_0_13 : ∀ a, (![0, 13] : Fin 2 → Nat) a + S512x1.size a ≤ S512x100.size a
  inb_S1x6400_S1x128_0_768 : ∀ a, (![0, 768] : Fin 2 → Nat) a + S1x128.size a ≤ S1x6400.size a
  inb_S512x6400_S512x128_0_768 : ∀ a, (![0, 768] : Fin 2 → Nat) a + S512x128.size a ≤ S512x6400.size a
  inb_S512x100_S512x1_0_14 : ∀ a, (![0, 14] : Fin 2 → Nat) a + S512x1.size a ≤ S512x100.size a
  inb_S512x100_S512x1_0_15 : ∀ a, (![0, 15] : Fin 2 → Nat) a + S512x1.size a ≤ S512x100.size a
  inb_S1x6400_S1x128_0_896 : ∀ a, (![0, 896] : Fin 2 → Nat) a + S1x128.size a ≤ S1x6400.size a
  inb_S512x6400_S512x128_0_896 : ∀ a, (![0, 896] : Fin 2 → Nat) a + S512x128.size a ≤ S512x6400.size a
  inb_S512x100_S512x1_0_16 : ∀ a, (![0, 16] : Fin 2 → Nat) a + S512x1.size a ≤ S512x100.size a
  inb_S512x100_S512x1_0_17 : ∀ a, (![0, 17] : Fin 2 → Nat) a + S512x1.size a ≤ S512x100.size a
  inb_S1x6400_S1x128_0_1024 : ∀ a, (![0, 1024] : Fin 2 → Nat) a + S1x128.size a ≤ S1x6400.size a
  inb_S512x6400_S512x128_0_1024 : ∀ a, (![0, 1024] : Fin 2 → Nat) a + S512x128.size a ≤ S512x6400.size a
  inb_S512x100_S512x1_0_18 : ∀ a, (![0, 18] : Fin 2 → Nat) a + S512x1.size a ≤ S512x100.size a
  inb_S512x100_S512x1_0_19 : ∀ a, (![0, 19] : Fin 2 → Nat) a + S512x1.size a ≤ S512x100.size a
  inb_S1x6400_S1x128_0_1152 : ∀ a, (![0, 1152] : Fin 2 → Nat) a + S1x128.size a ≤ S1x6400.size a
  inb_S512x6400_S512x128_0_1152 : ∀ a, (![0, 1152] : Fin 2 → Nat) a + S512x128.size a ≤ S512x6400.size a
  inb_S512x100_S512x1_0_20 : ∀ a, (![0, 20] : Fin 2 → Nat) a + S512x1.size a ≤ S512x100.size a
  inb_S512x100_S512x1_0_21 : ∀ a, (![0, 21] : Fin 2 → Nat) a + S512x1.size a ≤ S512x100.size a
  inb_S1x6400_S1x128_0_1280 : ∀ a, (![0, 1280] : Fin 2 → Nat) a + S1x128.size a ≤ S1x6400.size a
  inb_S512x6400_S512x128_0_1280 : ∀ a, (![0, 1280] : Fin 2 → Nat) a + S512x128.size a ≤ S512x6400.size a
  inb_S512x100_S512x1_0_22 : ∀ a, (![0, 22] : Fin 2 → Nat) a + S512x1.size a ≤ S512x100.size a
  inb_S512x100_S512x1_0_23 : ∀ a, (![0, 23] : Fin 2 → Nat) a + S512x1.size a ≤ S512x100.size a
  inb_S1x6400_S1x128_0_1408 : ∀ a, (![0, 1408] : Fin 2 → Nat) a + S1x128.size a ≤ S1x6400.size a
  inb_S512x6400_S512x128_0_1408 : ∀ a, (![0, 1408] : Fin 2 → Nat) a + S512x128.size a ≤ S512x6400.size a
  inb_S512x100_S512x1_0_24 : ∀ a, (![0, 24] : Fin 2 → Nat) a + S512x1.size a ≤ S512x100.size a
  inb_S512x100_S512x1_0_25 : ∀ a, (![0, 25] : Fin 2 → Nat) a + S512x1.size a ≤ S512x100.size a
  inb_S1x6400_S1x128_0_1536 : ∀ a, (![0, 1536] : Fin 2 → Nat) a + S1x128.size a ≤ S1x6400.size a
  inb_S512x6400_S512x128_0_1536 : ∀ a, (![0, 1536] : Fin 2 → Nat) a + S512x128.size a ≤ S512x6400.size a
  inb_S512x100_S512x1_0_26 : ∀ a, (![0, 26] : Fin 2 → Nat) a + S512x1.size a ≤ S512x100.size a
  inb_S512x100_S512x1_0_27 : ∀ a, (![0, 27] : Fin 2 → Nat) a + S512x1.size a ≤ S512x100.size a
  inb_S1x6400_S1x128_0_1664 : ∀ a, (![0, 1664] : Fin 2 → Nat) a + S1x128.size a ≤ S1x6400.size a
  inb_S512x6400_S512x128_0_1664 : ∀ a, (![0, 1664] : Fin 2 → Nat) a + S512x128.size a ≤ S512x6400.size a
  inb_S512x100_S512x1_0_28 : ∀ a, (![0, 28] : Fin 2 → Nat) a + S512x1.size a ≤ S512x100.size a
  inb_S512x100_S512x1_0_29 : ∀ a, (![0, 29] : Fin 2 → Nat) a + S512x1.size a ≤ S512x100.size a
  inb_S1x6400_S1x128_0_1792 : ∀ a, (![0, 1792] : Fin 2 → Nat) a + S1x128.size a ≤ S1x6400.size a
  inb_S512x6400_S512x128_0_1792 : ∀ a, (![0, 1792] : Fin 2 → Nat) a + S512x128.size a ≤ S512x6400.size a
  inb_S512x100_S512x1_0_30 : ∀ a, (![0, 30] : Fin 2 → Nat) a + S512x1.size a ≤ S512x100.size a
  inb_S512x100_S512x1_0_31 : ∀ a, (![0, 31] : Fin 2 → Nat) a + S512x1.size a ≤ S512x100.size a
  inb_S1x6400_S1x128_0_1920 : ∀ a, (![0, 1920] : Fin 2 → Nat) a + S1x128.size a ≤ S1x6400.size a
  inb_S512x6400_S512x128_0_1920 : ∀ a, (![0, 1920] : Fin 2 → Nat) a + S512x128.size a ≤ S512x6400.size a
  inb_S512x100_S512x1_0_32 : ∀ a, (![0, 32] : Fin 2 → Nat) a + S512x1.size a ≤ S512x100.size a
  inb_S512x100_S512x1_0_33 : ∀ a, (![0, 33] : Fin 2 → Nat) a + S512x1.size a ≤ S512x100.size a
  inb_S1x6400_S1x128_0_2048 : ∀ a, (![0, 2048] : Fin 2 → Nat) a + S1x128.size a ≤ S1x6400.size a
  inb_S512x6400_S512x128_0_2048 : ∀ a, (![0, 2048] : Fin 2 → Nat) a + S512x128.size a ≤ S512x6400.size a
  inb_S512x100_S512x1_0_34 : ∀ a, (![0, 34] : Fin 2 → Nat) a + S512x1.size a ≤ S512x100.size a
  inb_S512x100_S512x1_0_35 : ∀ a, (![0, 35] : Fin 2 → Nat) a + S512x1.size a ≤ S512x100.size a
  inb_S1x6400_S1x128_0_2176 : ∀ a, (![0, 2176] : Fin 2 → Nat) a + S1x128.size a ≤ S1x6400.size a
  inb_S512x6400_S512x128_0_2176 : ∀ a, (![0, 2176] : Fin 2 → Nat) a + S512x128.size a ≤ S512x6400.size a
  inb_S512x100_S512x1_0_36 : ∀ a, (![0, 36] : Fin 2 → Nat) a + S512x1.size a ≤ S512x100.size a
  inb_S512x100_S512x1_0_37 : ∀ a, (![0, 37] : Fin 2 → Nat) a + S512x1.size a ≤ S512x100.size a
  inb_S1x6400_S1x128_0_2304 : ∀ a, (![0, 2304] : Fin 2 → Nat) a + S1x128.size a ≤ S1x6400.size a
  inb_S512x6400_S512x128_0_2304 : ∀ a, (![0, 2304] : Fin 2 → Nat) a + S512x128.size a ≤ S512x6400.size a
  inb_S512x100_S512x1_0_38 : ∀ a, (![0, 38] : Fin 2 → Nat) a + S512x1.size a ≤ S512x100.size a
  inb_S512x100_S512x1_0_39 : ∀ a, (![0, 39] : Fin 2 → Nat) a + S512x1.size a ≤ S512x100.size a
  inb_S1x6400_S1x128_0_2432 : ∀ a, (![0, 2432] : Fin 2 → Nat) a + S1x128.size a ≤ S1x6400.size a
  inb_S512x6400_S512x128_0_2432 : ∀ a, (![0, 2432] : Fin 2 → Nat) a + S512x128.size a ≤ S512x6400.size a
  inb_S512x100_S512x1_0_40 : ∀ a, (![0, 40] : Fin 2 → Nat) a + S512x1.size a ≤ S512x100.size a
  inb_S512x100_S512x1_0_41 : ∀ a, (![0, 41] : Fin 2 → Nat) a + S512x1.size a ≤ S512x100.size a
  inb_S1x6400_S1x128_0_2560 : ∀ a, (![0, 2560] : Fin 2 → Nat) a + S1x128.size a ≤ S1x6400.size a
  inb_S512x6400_S512x128_0_2560 : ∀ a, (![0, 2560] : Fin 2 → Nat) a + S512x128.size a ≤ S512x6400.size a
  inb_S512x100_S512x1_0_42 : ∀ a, (![0, 42] : Fin 2 → Nat) a + S512x1.size a ≤ S512x100.size a
  inb_S512x100_S512x1_0_43 : ∀ a, (![0, 43] : Fin 2 → Nat) a + S512x1.size a ≤ S512x100.size a
  inb_S1x6400_S1x128_0_2688 : ∀ a, (![0, 2688] : Fin 2 → Nat) a + S1x128.size a ≤ S1x6400.size a
  inb_S512x6400_S512x128_0_2688 : ∀ a, (![0, 2688] : Fin 2 → Nat) a + S512x128.size a ≤ S512x6400.size a
  inb_S512x100_S512x1_0_44 : ∀ a, (![0, 44] : Fin 2 → Nat) a + S512x1.size a ≤ S512x100.size a
  inb_S512x100_S512x1_0_45 : ∀ a, (![0, 45] : Fin 2 → Nat) a + S512x1.size a ≤ S512x100.size a
  inb_S1x6400_S1x128_0_2816 : ∀ a, (![0, 2816] : Fin 2 → Nat) a + S1x128.size a ≤ S1x6400.size a
  inb_S512x6400_S512x128_0_2816 : ∀ a, (![0, 2816] : Fin 2 → Nat) a + S512x128.size a ≤ S512x6400.size a
  inb_S512x100_S512x1_0_46 : ∀ a, (![0, 46] : Fin 2 → Nat) a + S512x1.size a ≤ S512x100.size a
  inb_S512x100_S512x1_0_47 : ∀ a, (![0, 47] : Fin 2 → Nat) a + S512x1.size a ≤ S512x100.size a
  inb_S1x6400_S1x128_0_2944 : ∀ a, (![0, 2944] : Fin 2 → Nat) a + S1x128.size a ≤ S1x6400.size a
  inb_S512x6400_S512x128_0_2944 : ∀ a, (![0, 2944] : Fin 2 → Nat) a + S512x128.size a ≤ S512x6400.size a
  inb_S512x100_S512x1_0_48 : ∀ a, (![0, 48] : Fin 2 → Nat) a + S512x1.size a ≤ S512x100.size a
  inb_S512x100_S512x1_0_49 : ∀ a, (![0, 49] : Fin 2 → Nat) a + S512x1.size a ≤ S512x100.size a
  inb_S1x6400_S1x128_0_3072 : ∀ a, (![0, 3072] : Fin 2 → Nat) a + S1x128.size a ≤ S1x6400.size a
  inb_S512x6400_S512x128_0_3072 : ∀ a, (![0, 3072] : Fin 2 → Nat) a + S512x128.size a ≤ S512x6400.size a
  inb_S512x100_S512x1_0_50 : ∀ a, (![0, 50] : Fin 2 → Nat) a + S512x1.size a ≤ S512x100.size a
  inb_S512x100_S512x1_0_51 : ∀ a, (![0, 51] : Fin 2 → Nat) a + S512x1.size a ≤ S512x100.size a
  inb_S1x6400_S1x128_0_3200 : ∀ a, (![0, 3200] : Fin 2 → Nat) a + S1x128.size a ≤ S1x6400.size a
  inb_S512x6400_S512x128_0_3200 : ∀ a, (![0, 3200] : Fin 2 → Nat) a + S512x128.size a ≤ S512x6400.size a
  inb_S512x100_S512x1_0_52 : ∀ a, (![0, 52] : Fin 2 → Nat) a + S512x1.size a ≤ S512x100.size a
  inb_S512x100_S512x1_0_53 : ∀ a, (![0, 53] : Fin 2 → Nat) a + S512x1.size a ≤ S512x100.size a
  inb_S1x6400_S1x128_0_3328 : ∀ a, (![0, 3328] : Fin 2 → Nat) a + S1x128.size a ≤ S1x6400.size a
  inb_S512x6400_S512x128_0_3328 : ∀ a, (![0, 3328] : Fin 2 → Nat) a + S512x128.size a ≤ S512x6400.size a
  inb_S512x100_S512x1_0_54 : ∀ a, (![0, 54] : Fin 2 → Nat) a + S512x1.size a ≤ S512x100.size a
  inb_S512x100_S512x1_0_55 : ∀ a, (![0, 55] : Fin 2 → Nat) a + S512x1.size a ≤ S512x100.size a
  inb_S1x6400_S1x128_0_3456 : ∀ a, (![0, 3456] : Fin 2 → Nat) a + S1x128.size a ≤ S1x6400.size a
  inb_S512x6400_S512x128_0_3456 : ∀ a, (![0, 3456] : Fin 2 → Nat) a + S512x128.size a ≤ S512x6400.size a
  inb_S512x100_S512x1_0_56 : ∀ a, (![0, 56] : Fin 2 → Nat) a + S512x1.size a ≤ S512x100.size a
  inb_S512x100_S512x1_0_57 : ∀ a, (![0, 57] : Fin 2 → Nat) a + S512x1.size a ≤ S512x100.size a
  inb_S1x6400_S1x128_0_3584 : ∀ a, (![0, 3584] : Fin 2 → Nat) a + S1x128.size a ≤ S1x6400.size a
  inb_S512x6400_S512x128_0_3584 : ∀ a, (![0, 3584] : Fin 2 → Nat) a + S512x128.size a ≤ S512x6400.size a
  inb_S512x100_S512x1_0_58 : ∀ a, (![0, 58] : Fin 2 → Nat) a + S512x1.size a ≤ S512x100.size a
  inb_S512x100_S512x1_0_59 : ∀ a, (![0, 59] : Fin 2 → Nat) a + S512x1.size a ≤ S512x100.size a
  inb_S1x6400_S1x128_0_3712 : ∀ a, (![0, 3712] : Fin 2 → Nat) a + S1x128.size a ≤ S1x6400.size a
  inb_S512x6400_S512x128_0_3712 : ∀ a, (![0, 3712] : Fin 2 → Nat) a + S512x128.size a ≤ S512x6400.size a
  inb_S512x100_S512x1_0_60 : ∀ a, (![0, 60] : Fin 2 → Nat) a + S512x1.size a ≤ S512x100.size a
  inb_S512x100_S512x1_0_61 : ∀ a, (![0, 61] : Fin 2 → Nat) a + S512x1.size a ≤ S512x100.size a
  inb_S1x6400_S1x128_0_3840 : ∀ a, (![0, 3840] : Fin 2 → Nat) a + S1x128.size a ≤ S1x6400.size a
  inb_S512x6400_S512x128_0_3840 : ∀ a, (![0, 3840] : Fin 2 → Nat) a + S512x128.size a ≤ S512x6400.size a
  inb_S512x100_S512x1_0_62 : ∀ a, (![0, 62] : Fin 2 → Nat) a + S512x1.size a ≤ S512x100.size a
  inb_S512x100_S512x1_0_63 : ∀ a, (![0, 63] : Fin 2 → Nat) a + S512x1.size a ≤ S512x100.size a
  inb_S1x6400_S1x128_0_3968 : ∀ a, (![0, 3968] : Fin 2 → Nat) a + S1x128.size a ≤ S1x6400.size a
  inb_S512x6400_S512x128_0_3968 : ∀ a, (![0, 3968] : Fin 2 → Nat) a + S512x128.size a ≤ S512x6400.size a
  inb_S512x100_S512x1_0_64 : ∀ a, (![0, 64] : Fin 2 → Nat) a + S512x1.size a ≤ S512x100.size a
  inb_S512x100_S512x1_0_65 : ∀ a, (![0, 65] : Fin 2 → Nat) a + S512x1.size a ≤ S512x100.size a
  inb_S1x6400_S1x128_0_4096 : ∀ a, (![0, 4096] : Fin 2 → Nat) a + S1x128.size a ≤ S1x6400.size a
  inb_S512x6400_S512x128_0_4096 : ∀ a, (![0, 4096] : Fin 2 → Nat) a + S512x128.size a ≤ S512x6400.size a
  inb_S512x100_S512x1_0_66 : ∀ a, (![0, 66] : Fin 2 → Nat) a + S512x1.size a ≤ S512x100.size a
  inb_S512x100_S512x1_0_67 : ∀ a, (![0, 67] : Fin 2 → Nat) a + S512x1.size a ≤ S512x100.size a
  inb_S1x6400_S1x128_0_4224 : ∀ a, (![0, 4224] : Fin 2 → Nat) a + S1x128.size a ≤ S1x6400.size a
  inb_S512x6400_S512x128_0_4224 : ∀ a, (![0, 4224] : Fin 2 → Nat) a + S512x128.size a ≤ S512x6400.size a
  inb_S512x100_S512x1_0_68 : ∀ a, (![0, 68] : Fin 2 → Nat) a + S512x1.size a ≤ S512x100.size a
  inb_S512x100_S512x1_0_69 : ∀ a, (![0, 69] : Fin 2 → Nat) a + S512x1.size a ≤ S512x100.size a
  inb_S1x6400_S1x128_0_4352 : ∀ a, (![0, 4352] : Fin 2 → Nat) a + S1x128.size a ≤ S1x6400.size a
  inb_S512x6400_S512x128_0_4352 : ∀ a, (![0, 4352] : Fin 2 → Nat) a + S512x128.size a ≤ S512x6400.size a
  inb_S512x100_S512x1_0_70 : ∀ a, (![0, 70] : Fin 2 → Nat) a + S512x1.size a ≤ S512x100.size a
  inb_S512x100_S512x1_0_71 : ∀ a, (![0, 71] : Fin 2 → Nat) a + S512x1.size a ≤ S512x100.size a
  inb_S1x6400_S1x128_0_4480 : ∀ a, (![0, 4480] : Fin 2 → Nat) a + S1x128.size a ≤ S1x6400.size a
  inb_S512x6400_S512x128_0_4480 : ∀ a, (![0, 4480] : Fin 2 → Nat) a + S512x128.size a ≤ S512x6400.size a
  inb_S512x100_S512x1_0_72 : ∀ a, (![0, 72] : Fin 2 → Nat) a + S512x1.size a ≤ S512x100.size a
  inb_S512x100_S512x1_0_73 : ∀ a, (![0, 73] : Fin 2 → Nat) a + S512x1.size a ≤ S512x100.size a
  inb_S1x6400_S1x128_0_4608 : ∀ a, (![0, 4608] : Fin 2 → Nat) a + S1x128.size a ≤ S1x6400.size a
  inb_S512x6400_S512x128_0_4608 : ∀ a, (![0, 4608] : Fin 2 → Nat) a + S512x128.size a ≤ S512x6400.size a
  inb_S512x100_S512x1_0_74 : ∀ a, (![0, 74] : Fin 2 → Nat) a + S512x1.size a ≤ S512x100.size a
  inb_S512x100_S512x1_0_75 : ∀ a, (![0, 75] : Fin 2 → Nat) a + S512x1.size a ≤ S512x100.size a
  inb_S1x6400_S1x128_0_4736 : ∀ a, (![0, 4736] : Fin 2 → Nat) a + S1x128.size a ≤ S1x6400.size a
  inb_S512x6400_S512x128_0_4736 : ∀ a, (![0, 4736] : Fin 2 → Nat) a + S512x128.size a ≤ S512x6400.size a
  inb_S512x100_S512x1_0_76 : ∀ a, (![0, 76] : Fin 2 → Nat) a + S512x1.size a ≤ S512x100.size a
  inb_S512x100_S512x1_0_77 : ∀ a, (![0, 77] : Fin 2 → Nat) a + S512x1.size a ≤ S512x100.size a
  inb_S1x6400_S1x128_0_4864 : ∀ a, (![0, 4864] : Fin 2 → Nat) a + S1x128.size a ≤ S1x6400.size a
  inb_S512x6400_S512x128_0_4864 : ∀ a, (![0, 4864] : Fin 2 → Nat) a + S512x128.size a ≤ S512x6400.size a
  inb_S512x100_S512x1_0_78 : ∀ a, (![0, 78] : Fin 2 → Nat) a + S512x1.size a ≤ S512x100.size a
  inb_S512x100_S512x1_0_79 : ∀ a, (![0, 79] : Fin 2 → Nat) a + S512x1.size a ≤ S512x100.size a
  inb_S1x6400_S1x128_0_4992 : ∀ a, (![0, 4992] : Fin 2 → Nat) a + S1x128.size a ≤ S1x6400.size a
  inb_S512x6400_S512x128_0_4992 : ∀ a, (![0, 4992] : Fin 2 → Nat) a + S512x128.size a ≤ S512x6400.size a
  inb_S512x100_S512x1_0_80 : ∀ a, (![0, 80] : Fin 2 → Nat) a + S512x1.size a ≤ S512x100.size a
  inb_S512x100_S512x1_0_81 : ∀ a, (![0, 81] : Fin 2 → Nat) a + S512x1.size a ≤ S512x100.size a
  inb_S1x6400_S1x128_0_5120 : ∀ a, (![0, 5120] : Fin 2 → Nat) a + S1x128.size a ≤ S1x6400.size a
  inb_S512x6400_S512x128_0_5120 : ∀ a, (![0, 5120] : Fin 2 → Nat) a + S512x128.size a ≤ S512x6400.size a
  inb_S512x100_S512x1_0_82 : ∀ a, (![0, 82] : Fin 2 → Nat) a + S512x1.size a ≤ S512x100.size a
  inb_S512x100_S512x1_0_83 : ∀ a, (![0, 83] : Fin 2 → Nat) a + S512x1.size a ≤ S512x100.size a
  inb_S1x6400_S1x128_0_5248 : ∀ a, (![0, 5248] : Fin 2 → Nat) a + S1x128.size a ≤ S1x6400.size a
  inb_S512x6400_S512x128_0_5248 : ∀ a, (![0, 5248] : Fin 2 → Nat) a + S512x128.size a ≤ S512x6400.size a
  inb_S512x100_S512x1_0_84 : ∀ a, (![0, 84] : Fin 2 → Nat) a + S512x1.size a ≤ S512x100.size a
  inb_S512x100_S512x1_0_85 : ∀ a, (![0, 85] : Fin 2 → Nat) a + S512x1.size a ≤ S512x100.size a
  inb_S1x6400_S1x128_0_5376 : ∀ a, (![0, 5376] : Fin 2 → Nat) a + S1x128.size a ≤ S1x6400.size a
  inb_S512x6400_S512x128_0_5376 : ∀ a, (![0, 5376] : Fin 2 → Nat) a + S512x128.size a ≤ S512x6400.size a
  inb_S512x100_S512x1_0_86 : ∀ a, (![0, 86] : Fin 2 → Nat) a + S512x1.size a ≤ S512x100.size a
  inb_S512x100_S512x1_0_87 : ∀ a, (![0, 87] : Fin 2 → Nat) a + S512x1.size a ≤ S512x100.size a
  inb_S1x6400_S1x128_0_5504 : ∀ a, (![0, 5504] : Fin 2 → Nat) a + S1x128.size a ≤ S1x6400.size a
  inb_S512x6400_S512x128_0_5504 : ∀ a, (![0, 5504] : Fin 2 → Nat) a + S512x128.size a ≤ S512x6400.size a
  inb_S512x100_S512x1_0_88 : ∀ a, (![0, 88] : Fin 2 → Nat) a + S512x1.size a ≤ S512x100.size a
  inb_S512x100_S512x1_0_89 : ∀ a, (![0, 89] : Fin 2 → Nat) a + S512x1.size a ≤ S512x100.size a
  inb_S1x6400_S1x128_0_5632 : ∀ a, (![0, 5632] : Fin 2 → Nat) a + S1x128.size a ≤ S1x6400.size a
  inb_S512x6400_S512x128_0_5632 : ∀ a, (![0, 5632] : Fin 2 → Nat) a + S512x128.size a ≤ S512x6400.size a
  inb_S512x100_S512x1_0_90 : ∀ a, (![0, 90] : Fin 2 → Nat) a + S512x1.size a ≤ S512x100.size a
  inb_S512x100_S512x1_0_91 : ∀ a, (![0, 91] : Fin 2 → Nat) a + S512x1.size a ≤ S512x100.size a
  inb_S1x6400_S1x128_0_5760 : ∀ a, (![0, 5760] : Fin 2 → Nat) a + S1x128.size a ≤ S1x6400.size a
  inb_S512x6400_S512x128_0_5760 : ∀ a, (![0, 5760] : Fin 2 → Nat) a + S512x128.size a ≤ S512x6400.size a
  inb_S512x100_S512x1_0_92 : ∀ a, (![0, 92] : Fin 2 → Nat) a + S512x1.size a ≤ S512x100.size a
  inb_S512x100_S512x1_0_93 : ∀ a, (![0, 93] : Fin 2 → Nat) a + S512x1.size a ≤ S512x100.size a
  inb_S1x6400_S1x128_0_5888 : ∀ a, (![0, 5888] : Fin 2 → Nat) a + S1x128.size a ≤ S1x6400.size a
  inb_S512x6400_S512x128_0_5888 : ∀ a, (![0, 5888] : Fin 2 → Nat) a + S512x128.size a ≤ S512x6400.size a
  inb_S512x100_S512x1_0_94 : ∀ a, (![0, 94] : Fin 2 → Nat) a + S512x1.size a ≤ S512x100.size a
  inb_S512x100_S512x1_0_95 : ∀ a, (![0, 95] : Fin 2 → Nat) a + S512x1.size a ≤ S512x100.size a
  inb_S1x6400_S1x128_0_6016 : ∀ a, (![0, 6016] : Fin 2 → Nat) a + S1x128.size a ≤ S1x6400.size a
  inb_S512x6400_S512x128_0_6016 : ∀ a, (![0, 6016] : Fin 2 → Nat) a + S512x128.size a ≤ S512x6400.size a
  inb_S512x100_S512x1_0_96 : ∀ a, (![0, 96] : Fin 2 → Nat) a + S512x1.size a ≤ S512x100.size a
  inb_S512x100_S512x1_0_97 : ∀ a, (![0, 97] : Fin 2 → Nat) a + S512x1.size a ≤ S512x100.size a
  inb_S1x6400_S1x128_0_6144 : ∀ a, (![0, 6144] : Fin 2 → Nat) a + S1x128.size a ≤ S1x6400.size a
  inb_S512x6400_S512x128_0_6144 : ∀ a, (![0, 6144] : Fin 2 → Nat) a + S512x128.size a ≤ S512x6400.size a
  inb_S512x100_S512x1_0_98 : ∀ a, (![0, 98] : Fin 2 → Nat) a + S512x1.size a ≤ S512x100.size a
  inb_S512x100_S512x1_0_99 : ∀ a, (![0, 99] : Fin 2 → Nat) a + S512x1.size a ≤ S512x100.size a
  inb_S1x6400_S1x128_0_6272 : ∀ a, (![0, 6272] : Fin 2 → Nat) a + S1x128.size a ≤ S1x6400.size a
  inb_S512x6400_S512x128_0_6272 : ∀ a, (![0, 6272] : Fin 2 → Nat) a + S512x128.size a ≤ S512x6400.size a
  shapeCasts_S8192x6400_S8192x1x6400 : S8192x6400.ShapeCasts S8192x1x6400
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x100.size a ≤ S8192x100.size a
  hwx0_0 : ∀ i : grid0.Coords, EltTy.bits .f32 = 32 ∨ (Rect.block (s := S8192x100) S512x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x6400.size a ≤ S1x6400.size a
  hwx0_1 : ∀ i : grid0.Coords, EltTy.bits .f32 = 32 ∨ (Rect.block (s := S1x6400) S1x6400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x6400.size a ≤ S8192x6400.size a
  hwx0_2 : ∀ i : grid0.Coords, EltTy.bits .f32 = 32 ∨ (Rect.block (s := S8192x6400) S512x6400.size (cc0_transform_2 i) (hinb0_2 i)).WholeWords (EltTy.packing .f32)

variable [Facts₀]

abbrev win0_0 : Pipeline.Window sig grid0 :=
  Pipeline.Window.ofSpec (Memref.whole main_arg0) S512x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x6400.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x6400.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x100 : Shape := ⟨2, ![8192, 100]⟩
abbrev S100x64 : Shape := ⟨2, ![100, 64]⟩
abbrev S8192x100x1 : Shape := ⟨3, ![8192, 100, 1]⟩
abbrev S1x100x64 : Shape := ⟨3, ![1, 100, 64]⟩
abbrev S8192x100x64 : Shape := ⟨3, ![8192, 100, 64]⟩
abbrev S8192x1x6400 : Shape := ⟨3, ![8192, 1, 6400]⟩

abbrev nBuf : Space → Nat
  | .hbm => 8
  | .vmem => 0
  | .smem => 0
  | _ => 0

abbrev bufTy : (tb : Table) → Fin (tcTables nBuf tb) → BufTy
  | .hbm, ⟨0, _⟩ => ⟨S8192x100, .f32⟩
  | .hbm, ⟨1, _⟩ => ⟨S100x64, .f32⟩
  | .hbm, ⟨2, _⟩ => ⟨S8192x100x1, .f32⟩
  | .hbm, ⟨3, _⟩ => ⟨S1x100x64, .f32⟩
  | .hbm, ⟨4, _⟩ => ⟨S8192x100x64, .f32⟩
  | .hbm, ⟨5, _⟩ => ⟨S8192x100x64, .f32⟩
  | .hbm, ⟨6, _⟩ => ⟨S8192x100x64, .f32⟩
  | .hbm, ⟨7, _⟩ => ⟨S8192x1x6400, .f32⟩
  | _, _ => ⟨S8192x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  bcast_S8192x100_S8192x100x1_0_1 : S8192x100.BroadcastsInDim S8192x100x1 (![0, 1] : Fin 2 → Fin S8192x100x1.rank)
  bcast_S100x64_S1x100x64_1_2 : S100x64.BroadcastsInDim S1x100x64 (![1, 2] : Fin 2 → Fin S1x100x64.rank)
  bcast_S8192x100x1_S8192x100x64_0_1_2 : S8192x100x1.BroadcastsInDim S8192x100x64 (![0, 1, 2] : Fin 3 → Fin S8192x100x64.rank)
  bcast_S1x100x64_S8192x100x64_0_1_2 : S1x100x64.BroadcastsInDim S8192x100x64 (![0, 1, 2] : Fin 3 → Fin S8192x100x64.rank)
  shapeCasts_S8192x100x64_S8192x1x6400 : S8192x100x64.ShapeCasts S8192x1x6400

variable [Facts₀]

class Facts : Prop extends Facts₀ where

variable [Facts]
-- ==== Proof.PairBlock.lean ====
/-
  One grid point of the kernel, as a function of its two input blocks.

  The body fills its output block `[512, 6400]` by fifty stores, one per PAIR of adjacent columns of the
  `x` block `[512, 100]`: store `p` writes lanes `128 p … 128 p + 127`, and at row `b`, lane `l` of the pair
  it holds

      (if l ≥ 64 then x (b, 2 p + 1) else x (b, 2 p)) · w (0, 128 p + l)

  where `w` is the flattened table `[1, 6400]`. Writing `c = 128 p + l` for the column of the output block,
  `2 p + (1 if l ≥ 64 else 0)` is `c / 64`, so every store is a tile of ONE function of the block index,

      blockFn x w (b, c) = x (b, c / 64) · w (0, c),

  and since the fifty rectangles tile the block, the block after the body IS `blockFn` of the two input blocks
  (`out_block`). No law of arithmetic is used: the two sides are the same product at every index.
-/
import proofs.«124690_j25838523252762_2_alg».proof.Proof.Gen.KernelIdeal.Frame
import Idealize.ShloMosaic.Lib.ValueIdx
import Idealize.ShloMosaic.Lib.Pipeline.Value

set_option maxRecDepth 16384

noncomputable section

namespace Cert.KernelIdeal.PairBlock

open Idealize.ShloMosaic Idealize.ShloMosaic.TcCoe Idealize.ShloMosaic.ValueIdx
open Cert.KernelIdeal Cert.KernelIdeal.Gen

/-! ## The lane mask and the three broadcasts, read at an index -/

/-- The signed comparison `lane ≥ 64` of the lane number with the constant, decided over the 128 lanes. -/
theorem lane_ge : ∀ l : Fin 128, IntOp.cmpi .sge (BitVec.ofNat 32 l.val) 64#32 = if 64 ≤ l.val then 1#1 else 0#1 := by
  decide +kernel

/-- The mask is one exactly on the upper half of the lanes, whatever the row. -/
theorem mask_apply (b : Fin 512) (l : Fin 128) :
    (k0_pay3 : IVec S512x128 1) (ix2 b l) = if 64 ≤ l.val then 1#1 else 0#1 := by
  unfold k0_pay3
  show IntOp.cmpi .sge (iota .tc S512x128 32 [1] iota_S512x128_d1_w32 (ix2 b l)) 64#32 = _
  rw [iota_single_apply]
  exact lane_ge l

/-- A column `[512, 1]` broadcast along the lanes reads the column's row. -/
theorem bcast_col {α : Type} (x : S512x1.Idx → α) (b : Fin 512) (l : Fin 128) :
    broadcastTo S512x128 x broadcasts_S512x1_S512x128 (ix2 b l) = x (ix2 b 0) :=
  broadcastTo_apply x broadcasts_S512x1_S512x128 (ix2 b l) (ix2 b 0) (fun a => match a with
    | ⟨0, _⟩ => by show b.val = if (512 : Nat) = 1 then 0 else b.val; rw [if_neg (by decide)]
    | ⟨1, _⟩ => by show (0 : Nat) = if (1 : Nat) = 1 then 0 else l.val; rw [if_pos rfl])

/-- A row `[1, 128]` broadcast along the rows reads the row's lane. -/
theorem bcast_row {α : Type} (w : S1x128.Idx → α) (b : Fin 512) (l : Fin 128) :
    broadcastTo S512x128 w broadcasts_S1x128_S512x128 (ix2 b l) = w (ix2 0 l) :=
  broadcastTo_apply w broadcasts_S1x128_S512x128 (ix2 b l) (ix2 0 l) (fun a => match a with
    | ⟨0, _⟩ => by show (0 : Nat) = if (1 : Nat) = 1 then 0 else b.val; rw [if_pos rfl]
    | ⟨1, _⟩ => by show l.val = if (128 : Nat) = 1 then 0 else l.val; rw [if_neg (by decide)])

/-! ## One pair's product -/

/-- What one store holds, as a function of the three loads behind it: the two adjacent columns `xa`, `xb` of the `x`
    block and the 128-lane slice `w` of the table. Every one of the fifty stores' payloads is this term. -/
def pairTerm (xa xb : FVec Ideal S512x1 .f32) (w : FVec Ideal S1x128 .f32) : FVec Ideal S512x128 .f32 :=
  mulf (select k0_pay3
      (broadcastTo S512x128 (shapeCast S512x1 xb shapeCasts_S512x1_S512x1) broadcasts_S512x1_S512x128)
      (broadcastTo S512x128 (shapeCast S512x1 xa shapeCasts_S512x1_S512x1) broadcasts_S512x1_S512x128))
    (broadcastTo S512x128 (shapeCast S1x128 w shapeCasts_S1x128_S1x128) broadcasts_S1x128_S512x128)

/-- At row `b`, lane `l`: the upper half of the lanes takes the second column, the lower half the first, times the
    table's lane. -/
theorem pairTerm_apply (xa xb : FVec Ideal S512x1 .f32) (w : FVec Ideal S1x128 .f32) (b : Fin 512) (l : Fin 128) :
    pairTerm xa xb w (ix2 b l) = (if 64 ≤ l.val then xb (ix2 b 0) else xa (ix2 b 0)) * w (ix2 0 l) := by
  unfold pairTerm
  rw [mulf_apply, select_apply, mask_apply, bcast_col, bcast_col, bcast_row, shapeCast_self, shapeCast_self,
    shapeCast_self]
  by_cases h : 64 ≤ l.val
  · rw [if_pos h, if_pos h, select_one]
  · rw [if_neg h, if_neg h, select_zero]

/-! ## The block function, and every store a tile of it -/

/-- The output block as one function of the two input blocks: column `c` of the output takes column `c / 64` of the
    `x` block, times entry `c` of the flattened table. -/
def blockFn (x : Vec Ideal S512x100 .f32) (w : Vec Ideal S1x6400 .f32) : Vec Ideal S512x6400 .f32 := fun y =>
  x (ix2 (⟨(y 0).val, (y 0).isLt⟩ : Fin 512)
      (⟨(y 1).val / 64, by have h : (y 1).val < 6400 := (y 1).isLt; omega⟩ : Fin 100))
    * w (ix2 (0 : Fin 1) (⟨(y 1).val, (y 1).isLt⟩ : Fin 6400))

/-- The store of the pair of columns `oa`, `oa + 1` through the rectangle of lanes `64 oa … 64 oa + 127` holds
    `blockFn` there: at lane `l` of the pair the output column is `c = 64 oa + l`, and `c / 64` is `oa` on the lower
    half of the lanes and `oa + 1` on the upper half. -/
theorem piece_agrees (x : Vec Ideal S512x100 .f32) (w : Vec Ideal S1x6400 .f32) (oa ob oc : Nat)
    (hab : ob = oa + 1) (hc : oc = 64 * oa)
    (ha : ∀ a, (![0, oa] : Fin 2 → Nat) a + S512x1.size a ≤ S512x100.size a)
    (hb : ∀ a, (![0, ob] : Fin 2 → Nat) a + S512x1.size a ≤ S512x100.size a)
    (hw : ∀ a, (![0, oc] : Fin 2 → Nat) a + S1x128.size a ≤ S1x6400.size a)
    (ho : ∀ a, (![0, oc] : Fin 2 → Nat) a + S512x128.size a ≤ S512x6400.size a)
    (j : S512x128.Idx) :
    pairTerm (View.ld (Val := Elt Ideal) (e' := .f32) x (Rect.unit (s := S512x100) ![0, oa] S512x1.size ha))
        (View.ld (Val := Elt Ideal) (e' := .f32) x (Rect.unit (s := S512x100) ![0, ob] S512x1.size hb))
        (View.ld (Val := Elt Ideal) (e' := .f32) w (Rect.unit (s := S1x6400) ![0, oc] S1x128.size hw)) j
      = blockFn x w ((Rect.unit (s := S512x6400) ![0, oc] S512x128.size ho).emb j) := by
  obtain ⟨b, l, rfl⟩ : ∃ (b : Fin 512) (l : Fin 128), j = ix2 b l := ⟨j 0, j 1, eq_ix2 j⟩
  have hl : l.val < 128 := l.isLt
  rw [pairTerm_apply]
  unfold blockFn
  have hw' : (View.ld (Val := Elt Ideal) (e' := .f32) w (Rect.unit (s := S1x6400) ![0, oc] S1x128.size hw)) (ix2 0 l)
      = w (ix2 (0 : Fin 1) (⟨(((Rect.unit (s := S512x6400) ![0, oc] S512x128.size ho).emb (ix2 b l)) 1).val,
          (((Rect.unit (s := S512x6400) ![0, oc] S512x128.size ho).emb (ix2 b l)) 1).isLt⟩ : Fin 6400)) := by
    show w _ = w _
    congr 1; funext a; apply Fin.ext
    match a with
    | ⟨0, _⟩ => show 0 + 1 * 0 = 0; omega
    | ⟨1, _⟩ => show oc + 1 * l.val = oc + 1 * l.val; rfl
  rw [hw']
  congr 1
  by_cases h : 64 ≤ l.val
  · rw [if_pos h]
    show x _ = x _
    congr 1; funext a; apply Fin.ext
    match a with
    | ⟨0, _⟩ => show 0 + 1 * b.val = 0 + 1 * b.val; rfl
    | ⟨1, _⟩ => show ob + 1 * 0 = (oc + 1 * l.val) / 64; omega
  · rw [if_neg h]
    show x _ = x _
    congr 1; funext a; apply Fin.ext
    match a with
    | ⟨0, _⟩ => show 0 + 1 * b.val = 0 + 1 * b.val; rfl
    | ⟨1, _⟩ => show oa + 1 * 0 = (oc + 1 * l.val) / 64; omega

/-- THE BLOCK AFTER THE BODY is `blockFn` of the two input blocks: each of the fifty stores is a tile of it, and the
    fifty rectangles cover the block. -/
theorem out_block (x0 : Vec Ideal S512x100 .f32) (x1 : Vec Ideal S1x6400 .f32) (y : S512x6400.Idx) :
    out0_2 (F := Ideal) x0 x1 y = blockFn x0 x1 y := by
  unfold out0_2
  refine View.canon_apply_of_pieces (blockFn x0 x1) _ ?_ y
    (cover0_2 (F := Ideal) _ _ _ _ _ _ _ _ _ _ _ _ _ _ _ _ _ _ _ _ _ _ _ _ _ _ _ _ _ _ _ _ _ _ _ _ _ _ _ _ _ _ _ _ _ _ _ _ _ _ y)
  intro pc hpc
  repeat (rcases List.mem_cons.mp hpc with rfl | hpc; · exact fun j => piece_agrees x0 x1 _ _ _ (by rfl) (by rfl) (by decide) (by decide) (by decide) (by decide) j)
  nomatch hpc

end Cert.KernelIdeal.PairBlock

end
-- ==== Proof.Embed.lean ====
/-
  The result both programs compute, as one function of the two arguments.

  The module's output is `[B, 1, L·E]` with `B = 8192`, `L = 100`, `E = 64`: at `(r, 0, c)`, writing `c = 64 i + j` with
  `j < 64`, it holds `x (r, i) · W (i, j)` — row `r` of `x` spread over the flattened table, every `x` entry repeated
  across the 64 lanes of its table row. As a function of the output index: `i = c / 64`, `j = c % 64`.
-/
import Idealize.ShloMosaic.PureOps.Ideal
import Idealize.ShloMosaic.Lib.ValueIdx

noncomputable section

namespace Cert.Embed

open Idealize.ShloMosaic Idealize.ShloMosaic.ValueIdx

/-- `out (r, 0, c) = x (r, c / 64) · W (c / 64, c % 64)` on the extended reals. -/
def embedFn (x : (⟨2, ![8192, 100]⟩ : Shape).Idx → Ideal .f32) (W : (⟨2, ![100, 64]⟩ : Shape).Idx → Ideal .f32) :
    (⟨3, ![8192, 1, 6400]⟩ : Shape).Idx → Ideal .f32 := fun i =>
  x (ix2 (⟨(i 0).val, (i 0).isLt⟩ : Fin 8192)
      (⟨(i 2).val / 64, by have h : (i 2).val < 6400 := (i 2).isLt; omega⟩ : Fin 100))
    * W (ix2 (⟨(i 2).val / 64, by have h : (i 2).val < 6400 := (i 2).isLt; omega⟩ : Fin 100)
      (⟨(i 2).val % 64, Nat.mod_lt _ (by decide)⟩ : Fin 64))

end Cert.Embed

end
-- ==== Proof.WholeArray.lean ====
/-
  The kernel's result as one function of its two arguments.

  Grid point `t` of sixteen works on rows `512 t … 512 t + 511`: its `x` block is those rows of `x`, its table block
  is the whole flattened table, and its output block is those rows of the `[8192, 6400]` array. So what point `t`
  writes back is block `t` of

      arrFn x wf (r, c) = x (r, c / 64) · wf (0, c),

  the sixteen blocks tile the array, and the array after the run is `arrFn` of `x` and of the table as the region finds
  it. The table the region finds is the row-major reshape `[100, 64] → [1, 6400]` of the argument `W`, so
  `wf (0, c) = W (c / 64, c % 64)`; and the program's result is the row-major reshape `[8192, 6400] → [8192, 1, 6400]` of
  the array. Together: the result at `(r, 0, c)` is `x (r, c / 64) · W (c / 64, c % 64)`.
-/
import proofs.«124690_j25838523252762_2_alg».proof.Proof.PairBlock
import proofs.«124690_j25838523252762_2_alg».proof.Proof.Embed
import Idealize.ShloMosaic.Lib.StableHlo.Run
import Idealize.ShloMosaic.Lib.Pipeline.Value
import Idealize.ShloMosaic.Lib.ValueIdx

set_option maxRecDepth 16384

noncomputable section

namespace Cert.KernelIdeal.WholeArray

open Idealize.ShloMosaic Idealize.ShloMosaic.TcCoe Idealize.ShloMosaic.ValueIdx Idealize.SL.Sem
open Idealize.ShloMosaic.StableHlo
open Cert.KernelIdeal Cert.KernelIdeal.Gen Cert.KernelIdeal.PairBlock
open Idealize.ShloMosaic.Pipeline (Dat)

variable (m : (ℓ : Loc nD τ sig) → Buf (Elt Ideal) ℓ) (ρ : Dev nD → PrngReg)

/-! ## From one block to the array -/

/-- The `[8192, 6400]` array as one function of `x` and the flattened table: column `c` takes column `c / 64` of `x`,
    times entry `c` of the table. -/
def arrFn (x : Vec Ideal S8192x100 .f32) (wf : Vec Ideal S1x6400 .f32) : Vec Ideal S8192x6400 .f32 := fun i =>
  x (ix2 (⟨(i 0).val, (i 0).isLt⟩ : Fin 8192)
      (⟨(i 1).val / 64, by have h : (i 1).val < 6400 := (i 1).isLt; omega⟩ : Fin 100))
    * wf (ix2 (0 : Fin 1) (⟨(i 1).val, (i 1).isLt⟩ : Fin 6400))

/-- Where the three windows' blocks sit at point `t`: the `x` block and the output block are block row `t`, the
    table's block is always the whole table. Decided over the sixteen points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `arrFn` of the arrays the region finds: the block after the body is
    `blockFn` of the two input blocks, row `b` of the `x` block is row `512 t + b` of `x`, and the table's block is the
    table. -/
theorem flushed_eq (c : Dev nD) (t : Fin cfg0.N) :
    (dats m 0 c).flushed 2 t
      = ((cfg0.win 2).blk t).view.read (Elt Ideal) (arrFn (V m c main_arg0) (V m c main_v0)) := by
  show (cfg0.win 2).cut (grid0.coords t) ((dats m 0 c).after 2 t) = _
  rw [after0_2]
  obtain ⟨e0, e1, e2, e3, e4, e5⟩ := idx_facts t
  funext j
  have hj0 : (j 0).val < 512 := (j 0).isLt
  have hj1 : (j 1).val < 6400 := (j 1).isLt
  show out0_2 (iblk m c 0 t) (iblk m c 1 t) j
    = arrFn (V m c main_arg0) (V m c main_v0) (((cfg0.win 2).blk t).view.emb j)
  refine (out_block (iblk m c 0 t) (iblk m c 1 t) j).trans ?_
  unfold blockFn arrFn iblk
  have hx : ∀ (y : S512x100.Idx) (z : S8192x100.Idx), (y 0).val = (j 0).val → (y 1).val = (j 1).val / 64 →
      (z 0).val = win0_2.index t (0 : Fin 2) * 512 + 1 * (j 0).val →
      (z 1).val = (win0_2.index t (1 : Fin 2) * 6400 + 1 * (j 1).val) / 64 →
      V m c main_arg0 (((cfg0.win 0).blk t).view.emb y) = V m c main_arg0 z := by
    intro y z hy0 hy1 hz0 hz1
    refine congrArg (V m c main_arg0) (funext fun a => Fin.ext ?_)
    match a with
    | ⟨0, _⟩ => show win0_0.index t (0 : Fin 2) * 512 + 1 * (y 0).val = (z 0).val; omega
    | ⟨1, _⟩ => show win0_0.index t (1 : Fin 2) * 100 + 1 * (y 1).val = (z 1).val; omega
  have hw : ∀ (y : S1x6400.Idx) (z : S1x6400.Idx), (y 1).val = (j 1).val →
      (z 0).val = 0 → (z 1).val = win0_2.index t (1 : Fin 2) * 6400 + 1 * (j 1).val →
      V m c main_v0 (((cfg0.win 1).blk t).view.emb y) = V m c main_v0 z := by
    intro y z hy1 hz0 hz1
    have hy0 : (y 0).val < 1 := (y 0).isLt
    refine congrArg (V m c main_v0) (funext fun a => Fin.ext ?_)
    match a with
    | ⟨0, _⟩ => show win0_1.index t (0 : Fin 2) * 1 + 1 * (y 0).val = (z 0).val; omega
    | ⟨1, _⟩ => show win0_1.index t (1 : Fin 2) * 6400 + 1 * (y 1).val = (z 1).val; omega
  exact congrArg₂ (· * ·) (hx _ _ rfl rfl rfl rfl) (hw _ _ rfl rfl rfl)

/-- An index of the array is in point `t`'s block iff each coordinate is in the block's range on its axis. -/
theorem mem_blk (t : Fin cfg0.N) (i : S8192x6400.Idx) :
    i ∈ ((cfg0.win 2).blk t).view.set ↔ ∀ a : Fin 2, win0_2.index t a * S512x6400.size a ≤ (i a).val
      ∧ (i a).val < win0_2.index t a * S512x6400.size a + S512x6400.size a := by
  show i ∈ ((View.whole main_v1).slice (win0_2.rect t)).set ↔ _
  rw [View.set_slice_whole, Rect.mem_set_unit]
  exact Iff.rfl

/-- Row `r` of the array is in the block of point `r / 512`: the sixteen blocks cover the array. -/
theorem cover (i : S8192x6400.Idx) :
    ∃ t : Fin cfg0.N, (cfg0.win 2).flush t = true ∧ i ∈ ((cfg0.win 2).blk t).view.set := by
  have hi0 : (i 0).val < 8192 := (i 0).isLt
  have hi1 : (i 1).val < 6400 := (i 1).isLt
  have hlt : (i 0).val / 512 < 16 := by omega
  obtain ⟨e0, e1, e2, e3, e4, e5⟩ := idx_facts ⟨(i 0).val / 512, hlt⟩
  have e4' : win0_2.index ⟨(i 0).val / 512, hlt⟩ (0 : Fin 2) = (i 0).val / 512 := e4
  refine ⟨⟨(i 0).val / 512, hlt⟩, flush0_2 _, ?_⟩
  rw [mem_blk]
  intro a
  match a with
  | ⟨0, _⟩ =>
    show win0_2.index ⟨(i 0).val / 512, hlt⟩ (0 : Fin 2) * 512 ≤ (i 0).val
      ∧ (i 0).val < win0_2.index ⟨(i 0).val / 512, hlt⟩ (0 : Fin 2) * 512 + 512
    omega
  | ⟨1, _⟩ =>
    show win0_2.index ⟨(i 0).val / 512, hlt⟩ (1 : Fin 2) * 6400 ≤ (i 1).val
      ∧ (i 1).val < win0_2.index ⟨(i 0).val / 512, hlt⟩ (1 : Fin 2) * 6400 + 6400
    omega

/-- THE ARRAY after the run is `arrFn` of the arrays the region finds. -/
theorem final (c : Dev nD) : (dats m 0 c).arrAt 2 cfg0.N = arrFn (V m c main_arg0) (V m c main_v0) :=
  (dats m 0 c).arrAt_eq_of_cover 2 _ (fun t _ => flushed_eq m c t) cover

/-! ## The reshape before the region, and the reshape after it -/

/-- The table the region finds is the reshape of the argument `W`. -/
theorem table_flat (c : Dev nD) :
    (V m c main_v0 : S1x6400.Idx → Ideal .f32)
      = shapeCast S1x6400 (m ((c : Thread nD τ).loc main_arg1)) shapeCasts_S100x64_S1x6400 := by
  show StableHlo.after hostOps0 (fun b => m (c, b)) (Proc.devRef .tc main_v0) = _
  after_results
  rfl

/-- The program's result is the reshape of the array after the region. -/
theorem result_reshape (c : Dev nD) :
    Pipeline.afterTail₀ cfgs (dats m) 0 (V0 m) [hostOps1] c main_v2
      = shapeCast S8192x1x6400 ((dats m 0 c).arrAt 2 cfg0.N) shapeCasts_S8192x6400_S8192x1x6400 := by
  unfold Pipeline.afterTail₀
  show StableHlo.after hostOps1 _ (Proc.devRef .tc main_v2) = _
  after_results
  exact congrArg (fun A : S8192x6400.Idx → Ideal .f32 =>
      shapeCast S8192x1x6400 A shapeCasts_S8192x6400_S8192x1x6400)
    (Pipeline.withArrays_arr spec0 launch0.win.arr_inj c (V0 m c) (fun w => (dats m 0 c).arrAt w cfg0.N) 2)

/-! ## The result, index by index -/

/-- The two reshapes around `arrFn` read at an index: `(r, 0, c)` of the result is `(r, c)` of the array, and entry
    `(0, c)` of the flattened table is `W (c / 64, c % 64)` — each pair of indices has the same row-major position. -/
theorem reshape_arrFn (x : Vec Ideal S8192x100 .f32) (W : Vec Ideal S100x64 .f32) :
    shapeCast S8192x1x6400 (arrFn x (shapeCast S1x6400 W shapeCasts_S100x64_S1x6400))
        shapeCasts_S8192x6400_S8192x1x6400
      = Cert.Embed.embedFn x W := by
  funext i
  have h0 : (i 0).val < 8192 := (i 0).isLt
  have h1 : (i 1).val < 1 := (i 1).isLt
  have h2 : (i 2).val < 6400 := (i 2).isLt
  refine (shapeCast_apply _ shapeCasts_S8192x6400_S8192x1x6400 i
    (ix2 (⟨(i 0).val, (i 0).isLt⟩ : Fin 8192) (⟨(i 2).val, (i 2).isLt⟩ : Fin 6400)) (by
      rw [Shape.rowMajor_val_two, Shape.rowMajor_val_three]
      show (i 0).val * 6400 + (i 2).val = ((i 0).val * 1 + (i 1).val) * 6400 + (i 2).val
      omega)).trans ?_
  unfold arrFn Cert.Embed.embedFn
  refine congrArg₂ (· * ·) rfl ?_
  exact shapeCast_apply W shapeCasts_S100x64_S1x6400 _
    (ix2 (⟨(i 2).val / 64, by omega⟩ : Fin 100) (⟨(i 2).val % 64, Nat.mod_lt _ (by decide)⟩ : Fin 64)) (by
      rw [Shape.rowMajor_val_two, Shape.rowMajor_val_two]
      show (i 2).val / 64 * 64 + (i 2).val % 64 = 0 * 6400 + (i 2).val
      omega)

/-! ## The run -/

/-- At the ideal instance every weakly fair execution of the kernel's program terminates with its result at `embedFn`
    of the two arguments, and the arguments unchanged: the frame run's post, with the result read through the reshape
    after the region, the array after the region, and the reshape before it. -/
theorem run : θ_run defs (onTc (τ := τ) (main (F := Ideal))) ⟨m, fun _ => 0, ρ⟩ fun r => ∀ c : Dev nD,
      r.2.mem ((c.tc : Thread nD τ).loc main_v2)
        = Cert.Embed.embedFn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans
        ((result_reshape m c).trans (by
          rw [final m c, table_flat m c, V_main_arg0 m c]
          exact reshape_arrFn _ _)),
      ((h c).1 0).trans (((dats m 0 c).arrAt_in 0 rfl _).trans ((A_eq m c 0).trans (V_main_arg0 m c))),
      ((h c).2 main_arg1 (Pipeline.mem_restRefs_of main_arg1 (by decide) (by decide))).trans
        (W_main_arg1 m (dats m) c)⟩)
    (run_main m ρ)

end Cert.KernelIdeal.WholeArray

end
-- ==== Proof.RefValue.lean ====
/-
  The reference computes `embedFn`.

  The reference broadcasts `x` to `[8192, 100, 64]` along a new last axis and `W` along a new first axis, multiplies
  entry by entry — `(r, i, j) ↦ x (r, i) · W (i, j)` — and reshapes row-major to `[8192, 1, 6400]`. The output index
  `(r, 0, c)` and the product's index `(r, i, j)` have the same row-major position exactly when `i = c / 64` and
  `j = c % 64`, which is `embedFn`'s reading of the index.
-/
import proofs.«124690_j25838523252762_2_alg».proof.Proof.Gen.ReferenceIdeal.Read
import proofs.«124690_j25838523252762_2_alg».proof.Proof.Embed

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.Embed

/-- The reference's last stage, read back one operation at a time, is `embedFn` index by index. -/
theorem ref_is_embed (x : (⟨S8192x100, .f32⟩ : BufTy).Contents (Elt Ideal))
    (W : (⟨S100x64, .f32⟩ : BufTy).Contents (Elt Ideal)) :
    val_main_v5 (F := Ideal) x W = embedFn x W := by
  funext i
  have h0 : (i 0).val < 8192 := (i 0).isLt
  have h1 : (i 1).val < 1 := (i 1).isLt
  have h2 : (i 2).val < 6400 := (i 2).isLt
  rw [val_main_v5_apply, val_main_v4_apply, val_main_v2_apply, val_main_v0_apply, val_main_v3_apply,
    val_main_v1_apply]
  unfold embedFn
  refine congrArg₂ (· * ·) (congrArg x (funext fun a => Fin.ext ?_)) (congrArg W (funext fun a => Fin.ext ?_))
  · match a with
    | ⟨0, _⟩ => show (((i 0).val * 1 + (i 1).val) * 6400 + (i 2).val) / 6400 = (i 0).val; omega
    | ⟨1, _⟩ => show (((i 0).val * 1 + (i 1).val) * 6400 + (i 2).val) / 64 % 100 = (i 2).val / 64; omega
  · match a with
    | ⟨0, _⟩ => show (((i 0).val * 1 + (i 1).val) * 6400 + (i 2).val) / 64 % 100 = (i 2).val / 64; omega
    | ⟨1, _⟩ => show (((i 0).val * 1 + (i 1).val) * 6400 + (i 2).val) % 64 = (i 2).val % 64; omega

end Cert.ReferenceIdeal.RefValue

end
-- ==== Proof.lean ====
/-
  The kernel and its reference compute the same array, entry by entry, on the extended reals.

  The reference is a broadcast product: `out (r, 0, 64 i + j) = x (r, i) · W (i, j)` for `x : [8192, 100]`,
  `W : [100, 64]`. The kernel flattens `W` to `[1, 6400]`, walks the rows of `x` in sixteen blocks of 512, and fills each
  output block by fifty stores of 128 lanes: store `p` takes the pair of columns `2 p`, `2 p + 1` of the `x` block, picks
  the first on lanes `< 64` and the second on lanes `≥ 64`, and multiplies by lanes `128 p … 128 p + 127` of the flat
  table. Lane `l` of store `p` is output column `c = 128 p + l`, the column picked is `c / 64`, and entry `c` of the flat
  table is `W (c / 64, c % 64)`: the same product as the reference's at every index (`Cert.Embed.embedFn`). No law of
  arithmetic joins the two sides — only the re-indexing — so the precondition (finite inputs) is never opened.

  * Proof/Embed.lean — the common result as one function of `x` and `W`.
  * Proof/PairBlock.lean — one grid point: the fifty stores tile the block with one function of the two input blocks.
  * Proof/WholeArray.lean — the sixteen blocks tile the array; the reshapes before and after the region; the kernel's run.
  * Proof/RefValue.lean — the reference's run, read one operation at a time, is the same function.

  The three frames are the generated ones (the reference's is its generated run with the result dropped), and the
  idealization rewrote nothing, so `preserves` is `True`.
-/
import proofs.«124690_j25838523252762_2_alg».proof.Defs
import proofs.«124690_j25838523252762_2_alg».proof.Proof.Gen.Kernel
import proofs.«124690_j25838523252762_2_alg».proof.Proof.Gen.Kernel.Skeleton
import proofs.«124690_j25838523252762_2_alg».proof.Proof.Gen.Kernel.Launch
import proofs.«124690_j25838523252762_2_alg».proof.Proof.Gen.Kernel.Points
import proofs.«124690_j25838523252762_2_alg».proof.Proof.Gen.Kernel.Frame
import proofs.«124690_j25838523252762_2_alg».proof.Proof.Gen.KernelIdeal
import proofs.«124690_j25838523252762_2_alg».proof.Proof.Gen.KernelIdeal.Skeleton
import proofs.«124690_j25838523252762_2_alg».proof.Proof.Gen.KernelIdeal.Launch
import proofs.«124690_j25838523252762_2_alg».proof.Proof.Gen.KernelIdeal.Points
import proofs.«124690_j25838523252762_2_alg».proof.Proof.Gen.KernelIdeal.Frame
import proofs.«124690_j25838523252762_2_alg».proof.Proof.Gen.ReferenceIdeal
import proofs.«124690_j25838523252762_2_alg».proof.Proof.Gen.Pre_finite_inputs
import proofs.«124690_j25838523252762_2_alg».proof.Proof.Gen.ReferenceIdeal.Run
import proofs.«124690_j25838523252762_2_alg».proof.Proof.Gen.ReferenceIdeal.Read
import proofs.«124690_j25838523252762_2_alg».proof.Proof.WholeArray
import proofs.«124690_j25838523252762_2_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on `x` and `W`, both programs end with `embedFn x W` in their result. -/
theorem algebraic : Cert.algebraic_KernelIdeal_ReferenceIdeal := by
  intro m ρ m' ρ' _ hagree
  refine ⟨fun c => Cert.Embed.embedFn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.WholeArray.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.ReferenceIdeal.RefValue.ref_is_embed, (hagree c).1,
    (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
